-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16x512 : Shape := ⟨3, ![4096, 16, 512]⟩
abbrev S_ : Shape := ⟨0, ![]⟩

class Facts : Prop where
  bcast_S_S4096x16x512 : S_.BroadcastsInDim S4096x16x512 (![] : Fin 0 → Fin S4096x16x512.rank)
  reducesTo_S4096x16x512_S_d0_1_2 : S4096x16x512.ReducesTo [0, 1, 2] S_
  h_S_ : 0 < S_.numel

variable [Facts]

def fn {F : FTy → Type} [FloatOps F] (main_arg0 : FVec F S4096x16x512 .f32) (main_arg1 : FVec F S4096x16x512 .f32) : IVec S_ 1 :=
  let main_v0 : FVec F S4096x16x512 .f32 := Host.absf main_arg0
  let main_cst : FVec F S_ .f32 := constant S_ .f32 0x7F800000#32
  let main_v1 : FVec F S4096x16x512 .f32 := broadcastInDim S4096x16x512 ![] bcast_S_S4096x16x512 main_cst
  let main_v2 : IVec S4096x16x512 1 := cmpf .olt main_v0 main_v1
  let main_c : IVec S_ 1 := constantI S_ 1 1#1
  let main_v3 : IVec S_ 1 := (fun x v => Host.reduce IntOp.andi x v reducesTo_S4096x16x512_S_d0_1_2 h_S_) main_v2 main_c
  let main_v4 : FVec F S4096x16x512 .f32 := Host.absf main_arg1
  let main_cst_0 : FVec F S_ .f32 := constant S_ .f32 0x7F800000#32
  let main_v5 : FVec F S4096x16x512 .f32 := broadcastInDim S4096x16x512 ![] bcast_S_S4096x16x512 main_cst_0
  let main_v6 : IVec S4096x16x512 1 := cmpf .olt main_v4 main_v5
  let main_c_1 : IVec S_ 1 := constantI S_ 1 1#1
  let main_v7 : IVec S_ 1 := (fun x v => Host.reduce IntOp.andi x v reducesTo_S4096x16x512_S_d0_1_2 h_S_) main_v6 main_c_1
  let main_v8 : IVec S_ 1 := andi main_v3 main_v7
  main_v8
-- ==== Kernel.lean ====
abbrev S4096x16x512 : Shape := ⟨3, ![4096, 16, 512]⟩
abbrev S128x16x512 : Shape := ⟨3, ![128, 16, 512]⟩
abbrev S128x16 : Shape := ⟨2, ![128, 16]⟩
abbrev S128x16x1 : Shape := ⟨3, ![128, 16, 1]⟩

abbrev nBuf : Space → Nat
  | .hbm => 3
  | .vmem => 6
  | .smem => 0
  | _ => 0

abbrev bufTy : (tb : Table) → Fin (tcTables nBuf tb) → BufTy
  | .hbm, ⟨0, _⟩ => ⟨S4096x16x512, .f32⟩
  | .hbm, ⟨1, _⟩ => ⟨S4096x16x512, .f32⟩
  | .hbm, ⟨2, _⟩ => ⟨S4096x16x512, .f32⟩
  | .local _ .vmem, ⟨0, _⟩ => ⟨S128x16x512, .f32⟩
  | .local _ .vmem, ⟨1, _⟩ => ⟨S128x16x512, .f32⟩
  | .local _ .vmem, ⟨2, _⟩ => ⟨S128x16x512, .f32⟩
  | .local _ .vmem, ⟨3, _⟩ => ⟨S128x16x512, .f32⟩
  | .local _ .vmem, ⟨4, _⟩ => ⟨S128x16x512, .f32⟩
  | .local _ .vmem, ⟨5, _⟩ => ⟨S128x16x512, .f32⟩
  | _, _ => ⟨S4096x16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S128x16x512_S128x16x512_0_0_0 : ∀ a, (![0, 0, 0] : Fin 3 → Nat) a + S128x16x512.size a ≤ S128x16x512.size a
  h_S128x16x512 : 0 < S128x16x512.numel
  reduces_S128x16x512_S128x16 : S128x16x512.Reduces [2] S128x16
  shapeCasts_S128x16_S128x16x1 : S128x16.ShapeCasts S128x16x1
  broadcasts_S128x16x1_S128x16x512 : S128x16x1.Broadcasts S128x16x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16x512.size a ≤ S4096x16x512.size a
  hwx0_0 : ∀ i : grid0.Coords, EltTy.bits .f32 = 32 ∨ (Rect.block (s := S4096x16x512) S128x16x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x16x512.size a ≤ S4096x16x512.size a
  hwx0_1 : ∀ i : grid0.Coords, EltTy.bits .f32 = 32 ∨ (Rect.block (s := S4096x16x512) S128x16x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x16x512.size a ≤ S4096x16x512.size a
  hwx0_2 : ∀ i : grid0.Coords, EltTy.bits .f32 = 32 ∨ (Rect.block (s := S4096x16x512) S128x16x512.size (cc0_transform_2 i) (hinb0_2 i)).WholeWords (EltTy.packing .f32)

variable [Facts₀]

abbrev win0_0 : Pipeline.Window sig grid0 :=
  Pipeline.Window.ofSpec (Memref.whole main_arg0) S128x16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x16x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x16x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x16x512 : Shape := ⟨3, ![4096, 16, 512]⟩
abbrev S_ : Shape := ⟨0, ![]⟩
abbrev S4096x16 : Shape := ⟨2, ![4096, 16]⟩
abbrev S4096x16x1 : Shape := ⟨3, ![4096, 16, 1]⟩

abbrev nBuf : Space → Nat
  | .hbm => 39
  | .vmem => 0
  | .smem => 0
  | _ => 0

abbrev bufTy : (tb : Table) → Fin (tcTables nBuf tb) → BufTy
  | .hbm, ⟨0, _⟩ => ⟨S4096x16x512, .f32⟩
  | .hbm, ⟨1, _⟩ => ⟨S4096x16x512, .f32⟩
  | .hbm, ⟨2, _⟩ => ⟨S4096x16x512, .f32⟩
  | .hbm, ⟨3, _⟩ => ⟨S_, .f32⟩
  | .hbm, ⟨4, _⟩ => ⟨S4096x16, .f32⟩
  | .hbm, ⟨5, _⟩ => ⟨S4096x16x1, .f32⟩
  | .hbm, ⟨6, _⟩ => ⟨S4096x16x1, .f32⟩
  | .hbm, ⟨7, _⟩ => ⟨S_, .f32⟩
  | .hbm, ⟨8, _⟩ => ⟨S4096x16x1, .f32⟩
  | .hbm, ⟨9, _⟩ => ⟨S4096x16x1, .f32⟩
  | .hbm, ⟨10, _⟩ => ⟨S4096x16x512, .f32⟩
  | .hbm, ⟨11, _⟩ => ⟨S4096x16x512, .f32⟩
  | .hbm, ⟨12, _⟩ => ⟨S4096x16x512, .f32⟩
  | .hbm, ⟨13, _⟩ => ⟨S_, .f32⟩
  | .hbm, ⟨14, _⟩ => ⟨S4096x16, .f32⟩
  | .hbm, ⟨15, _⟩ => ⟨S4096x16x1, .f32⟩
  | .hbm, ⟨16, _⟩ => ⟨S4096x16x1, .f32⟩
  | .hbm, ⟨17, _⟩ => ⟨S_, .f32⟩
  | .hbm, ⟨18, _⟩ => ⟨S4096x16x1, .f32⟩
  | .hbm, ⟨19, _⟩ => ⟨S4096x16x1, .f32⟩
  | .hbm, ⟨20, _⟩ => ⟨S4096x16x512, .f32⟩
  | .hbm, ⟨21, _⟩ => ⟨S4096x16x512, .f32⟩
  | .hbm, ⟨22, _⟩ => ⟨S4096x16x512, .f32⟩
  | .hbm, ⟨23, _⟩ => ⟨S_, .f32⟩
  | .hbm, ⟨24, _⟩ => ⟨S4096x16, .f32⟩
  | .hbm, ⟨25, _⟩ => ⟨S4096x16x1, .f32⟩
  | .hbm, ⟨26, _⟩ => ⟨S4096x16x1, .f32⟩
  | .hbm, ⟨27, _⟩ => ⟨S4096x16x1, .f32⟩
  | .hbm, ⟨28, _⟩ => ⟨S_, .f32⟩
  | .hbm, ⟨29, _⟩ => ⟨S4096x16x1, .f32⟩
  | .hbm, ⟨30, _⟩ => ⟨S4096x16x1, .f32⟩
  | .hbm, ⟨31, _⟩ => ⟨S_, .f32⟩
  | .hbm, ⟨32, _⟩ => ⟨S4096x16x1, .f32⟩
  | .hbm, ⟨33, _⟩ => ⟨S4096x16x1, .f32⟩
  | .hbm, ⟨34, _⟩ => ⟨S_, .f32⟩
  | .hbm, ⟨35, _⟩ => ⟨S4096x16x1, .f32⟩
  | .hbm, ⟨36, _⟩ => ⟨S4096x16x1, .f32⟩
  | .hbm, ⟨37, _⟩ => ⟨S4096x16x512, .f32⟩
  | .hbm, ⟨38, _⟩ => ⟨S4096x16x512, .f32⟩
  | _, _ => ⟨S4096x16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  reducesTo_S4096x16x512_S4096x16_d2 : S4096x16x512.ReducesTo [2] S4096x16
  h_S_ : 0 < S_.numel
  bcast_S4096x16_S4096x16x1_0_1 : S4096x16.BroadcastsInDim S4096x16x1 (![0, 1] : Fin 2 → Fin S4096x16x1.rank)
  bcast_S_S4096x16x1 : S_.BroadcastsInDim S4096x16x1 (![] : Fin 0 → Fin S4096x16x1.rank)
  bcast_S4096x16x1_S4096x16x512_0_1_2 : S4096x16x1.BroadcastsInDim S4096x16x512 (![0, 1, 2] : Fin 3 → Fin S4096x16x512.rank)

variable [Facts₀]

class Facts : Prop extends Facts₀ where

variable [Facts]
-- ==== Proof.CosineGate.lean ====
/-
  The function both programs compute, written once on the extended reals.

  A row is a function `Fin 512 → EReal`: the 512 lanes of one (token, batch) position.
  Its Euclidean length, never taken below the constant ε (the f32 word `0x2B8CBCCC`, about 1e-12),
  is `max (sqrt (∑ₖ rₖ²)) ε`.  The cosine of two rows is the sum over the lanes of the products of the
  two rows' entries, each entry first divided by its own row's floored length.  The gate weight of a
  pair of rows is `1 − σ(cosine)`, with σ the logistic function `1 / (1 + e⁻ᵗ)`.  The gated array
  multiplies every entry of the second array by the weight of its own row against the same row of
  the first array.

  The float words stay words: both programs carry the same word for ε and the same word for one, so
  neither is evaluated, except that the word for one has to be the real number one where the
  logistic function is spelt out as a quotient (`one_word`).
-/
import Idealize.ShloMosaic.PureOps.Ideal.Laws
import Idealize.ShloMosaic.Lib.ValueIdx

noncomputable section

open scoped BigOperators

namespace Cert.CosineGate

open Idealize.ShloMosaic Idealize.ShloMosaic.ValueIdx

/-- The Euclidean length of a row, floored by ε: `max (sqrt (∑ₖ rₖ²)) ε`. -/
def flooredNorm (r : Fin 512 → EReal) : EReal :=
  max (Ideal.sqrt (∑ k : Fin 512, r k * r k)) (Ideal.ofBits .f32 0x2B8CBCCC#32)

/-- The cosine of two rows: `∑ₖ (rₖ / ‖r‖) · (sₖ / ‖s‖)`, the lengths floored by ε. -/
def cosine (r s : Fin 512 → EReal) : EReal :=
  ∑ k : Fin 512, Ideal.div (r k) (flooredNorm r) * Ideal.div (s k) (flooredNorm s)

/-- The gate weight of two rows: one minus the logistic function of their cosine. -/
def weight (r s : Fin 512 → EReal) : EReal :=
  Ideal.ofBits .f32 0x3F800000#32 - Ideal.logistic (cosine r s)

/-- Row `(p, q)` of a rank-3 array whose last two extents are 16 and 512. -/
def row {n : Nat} (x : (⟨3, ![n, 16, 512]⟩ : Shape).Idx → EReal) (p : Fin n) (q : Fin 16) : Fin 512 → EReal :=
  fun k => x (ix3 p q k)

/-- The gated array: entry `(p, q, r)` of `y` times the weight of row `(p, q)` of `x` against row `(p, q)` of `y`. -/
def gated (x y : (⟨3, ![4096, 16, 512]⟩ : Shape).Idx → EReal) : (⟨3, ![4096, 16, 512]⟩ : Shape).Idx → EReal :=
  fun i => y i * weight (row x (i 0) (i 1)) (row y (i 0) (i 1))

/-- The gated array at an index given by its coordinates. -/
theorem gated_ix3 (x y : (⟨3, ![4096, 16, 512]⟩ : Shape).Idx → EReal) (p : Fin 4096) (q : Fin 16) (r : Fin 512) :
    gated x y (ix3 p q r) = y (ix3 p q r) * weight (row x p q) (row y p q) := rfl

/-- The f32 word of 1.0 is the real number one. -/
theorem one_word : Ideal.ofBits .f32 0x3F800000#32 = 1 := by
  simp [Ideal.ofBits, Ideal.ieee, -EReal.coe_mul]; norm_num

/-- The weight with the logistic function spelt out as the quotient `1 / (1 + e^(−t))`, every one written as
    the f32 word of 1.0: the form in which a program that expands the logistic function computes it. -/
theorem weight_spelt (r s : Fin 512 → EReal) :
    weight r s = Ideal.ofBits .f32 0x3F800000#32
      - Ideal.div (Ideal.ofBits .f32 0x3F800000#32) (Ideal.ofBits .f32 0x3F800000#32 + Ideal.exp (-(cosine r s))) := by
  unfold weight Ideal.logistic
  rw [one_word]

end Cert.CosineGate

end
-- ==== Proof.GateReference.lean ====
/-
  The reference program computes the gated array.

  Read one host operation at a time, the reference forms, for each array, the row sums of squares,
  their square roots floored by ε, and the entries divided by them; then the row sums of the products
  of the two normalised arrays (the cosines); then `1 − 1 / (1 + e^(−cosine))`, the logistic function
  spelt out as a quotient; and last the second array times that weight, broadcast back along the lanes.
  Each stage below identifies one of these intermediate arrays, at an index given by its coordinates,
  with the corresponding piece of the specification.  A row sum starts from the f32 word of zero,
  which is the real zero, so it is the plain sum.
-/
import proofs.«173026_j64836826300527_1_alg».proof.Proof.Gen.ReferenceIdeal.Read
import proofs.«173026_j64836826300527_1_alg».proof.Proof.CosineGate
import Idealize.ShloMosaic.Lib.ValueIdx

noncomputable section

open scoped BigOperators

namespace Cert.CosineGate.Reference

open Cert.ReferenceIdeal Cert.ReferenceIdeal.Gen Cert.ReferenceIdeal.Read
open Idealize.ShloMosaic Idealize.ShloMosaic.ValueIdx Cert.CosineGate

/-! ## The index maps of the layout operations, at coordinates -/

theorem keep_v2 (p : Fin 4096) (q : Fin 16) : idx_main_v2 (ix3 p q (0 : Fin 1)) = ix2 p q :=
  funext fun a => Fin.ext (by match a with | ⟨0, _⟩ => rfl | ⟨1, _⟩ => rfl)
theorem keep_v10 (p : Fin 4096) (q : Fin 16) : idx_main_v10 (ix3 p q (0 : Fin 1)) = ix2 p q :=
  funext fun a => Fin.ext (by match a with | ⟨0, _⟩ => rfl | ⟨1, _⟩ => rfl)
theorem keep_v18 (p : Fin 4096) (q : Fin 16) : idx_main_v18 (ix3 p q (0 : Fin 1)) = ix2 p q :=
  funext fun a => Fin.ext (by match a with | ⟨0, _⟩ => rfl | ⟨1, _⟩ => rfl)
theorem lane_v1 (p : Fin 4096) (q : Fin 16) (k : Fin 512) : idx_main_v1 (ix2 p q) k = ix3 p q k :=
  funext fun a => Fin.ext (by match a with | ⟨0, _⟩ => rfl | ⟨1, _⟩ => rfl | ⟨2, _⟩ => rfl)
theorem lane_v9 (p : Fin 4096) (q : Fin 16) (k : Fin 512) : idx_main_v9 (ix2 p q) k = ix3 p q k :=
  funext fun a => Fin.ext (by match a with | ⟨0, _⟩ => rfl | ⟨1, _⟩ => rfl | ⟨2, _⟩ => rfl)
theorem lane_v17 (p : Fin 4096) (q : Fin 16) (k : Fin 512) : idx_main_v17 (ix2 p q) k = ix3 p q k :=
  funext fun a => Fin.ext (by match a with | ⟨0, _⟩ => rfl | ⟨1, _⟩ => rfl | ⟨2, _⟩ => rfl)
theorem column_v6 (p : Fin 4096) (q : Fin 16) (k : Fin 512) : idx_main_v6 (ix3 p q k) = ix3 p q (0 : Fin 1) :=
  funext fun a => Fin.ext (by match a with | ⟨0, _⟩ => rfl | ⟨1, _⟩ => rfl | ⟨2, _⟩ => rfl)
theorem column_v14 (p : Fin 4096) (q : Fin 16) (k : Fin 512) : idx_main_v14 (ix3 p q k) = ix3 p q (0 : Fin 1) :=
  funext fun a => Fin.ext (by match a with | ⟨0, _⟩ => rfl | ⟨1, _⟩ => rfl | ⟨2, _⟩ => rfl)
theorem column_v27 (p : Fin 4096) (q : Fin 16) (k : Fin 512) : idx_main_v27 (ix3 p q k) = ix3 p q (0 : Fin 1) :=
  funext fun a => Fin.ext (by match a with | ⟨0, _⟩ => rfl | ⟨1, _⟩ => rfl | ⟨2, _⟩ => rfl)

/-! ## The floored lengths -/

/-- The first array's floored row length, as the reference computes it. -/
theorem floored_first (x0 : S4096x16x512.Idx → EReal) (p : Fin 4096) (q : Fin 16) :
    val_main_v5 (F := Ideal) x0 (ix3 p q (0 : Fin 1)) = flooredNorm (row x0 p q) := by
  rw [val_main_v5_apply, val_main_v3_apply, val_main_v2_apply, keep_v2, val_main_v1_apply, val_main_v4_apply,
    val_main_cst_0_apply, val_main_cst_apply]
  simp only [lane_v1, val_main_v0_apply, Ideal.ofBits_def, Ideal.ofBits_zero_f32, zero_add, Ideal.mulf_def,
    Ideal.hostUnary_sqrt_def, Ideal.maximumf_def]
  rfl

/-- The second array's floored row length, as the reference computes it. -/
theorem floored_second (x1 : S4096x16x512.Idx → EReal) (p : Fin 4096) (q : Fin 16) :
    val_main_v13 (F := Ideal) x1 (ix3 p q (0 : Fin 1)) = flooredNorm (row x1 p q) := by
  rw [val_main_v13_apply, val_main_v11_apply, val_main_v10_apply, keep_v10, val_main_v9_apply, val_main_v12_apply,
    val_main_cst_2_apply, val_main_cst_1_apply]
  simp only [lane_v9, val_main_v8_apply, Ideal.ofBits_def, Ideal.ofBits_zero_f32, zero_add, Ideal.mulf_def,
    Ideal.hostUnary_sqrt_def, Ideal.maximumf_def]
  rfl

/-! ## The cosine -/

/-- The row sums of the products of the normalised arrays are the cosines. -/
theorem cosine_eq (x0 x1 : S4096x16x512.Idx → EReal) (p : Fin 4096) (q : Fin 16) :
    val_main_v18 (F := Ideal) x0 x1 (ix3 p q (0 : Fin 1)) = cosine (row x0 p q) (row x1 p q) := by
  rw [val_main_v18_apply, keep_v18, val_main_v17_apply, val_main_cst_3_apply]
  simp only [lane_v17, val_main_v16_apply, val_main_v7_apply, val_main_v15_apply, val_main_v6_apply, val_main_v14_apply,
    column_v6, column_v14, floored_first, floored_second, Ideal.ofBits_def, Ideal.ofBits_zero_f32, zero_add,
    Ideal.mulf_def, Ideal.hostDivf_def]
  rfl

/-! ## The weight and the result -/

/-- One minus the spelt-out logistic function of the cosine is the weight. -/
theorem weight_eq (x0 x1 : S4096x16x512.Idx → EReal) (p : Fin 4096) (q : Fin 16) :
    val_main_v26 (F := Ideal) x0 x1 (ix3 p q (0 : Fin 1)) = weight (row x0 p q) (row x1 p q) := by
  rw [val_main_v26_apply, val_main_v25_apply, val_main_cst_6_apply, val_main_v24_apply, val_main_v23_apply,
    val_main_cst_5_apply, val_main_v22_apply, val_main_v21_apply, val_main_cst_4_apply, val_main_v20_apply,
    val_main_v19_apply, cosine_eq, weight_spelt]
  simp only [Ideal.ofBits_def, Ideal.subf_def, Ideal.addf_def, Ideal.hostDivf_def, Ideal.hostUnary_exp_def,
    Ideal.hostNegf_def, Ideal.negf_def]

/-- THE REFERENCE'S RESULT is the gated array of its two arguments. -/
theorem result_eq (x0 x1 : S4096x16x512.Idx → EReal) : val_main_v28 (F := Ideal) x0 x1 = gated x0 x1 := by
  funext i
  obtain ⟨p, q, r, rfl⟩ : ∃ (p : Fin 4096) (q : Fin 16) (r : Fin 512), i = ix3 p q r := ⟨i 0, i 1, i 2, eq_ix3 i⟩
  rw [val_main_v28_apply, val_main_v27_apply, column_v27, weight_eq, gated_ix3]
  rfl

end Cert.CosineGate.Reference

end
-- ==== Proof.GateBlock.lean ====
/-
  One block of the kernel's output is the gated block of its two input blocks.

  At a grid point the kernel body loads a block of 128 × 16 rows of each argument and stores one value
  built from them: three lane sums (each row's sum of squares, twice, and the row sum of the products
  of the normalised entries), each reshaped from [128, 16] to a column [128, 16, 1] and broadcast back
  along the 512 lanes.  Read at an index `(p, q, r)` of the block, a lane sum over the block is the plain
  sum over the lane coordinate (its starting word is the neutral one), the column keeps `(p, q)`, and the
  broadcast forgets `r`; so the stored value at `(p, q, r)` is the second block's entry there times the
  gate weight of row `(p, q)` of the first block against row `(p, q)` of the second.
-/
import proofs.«173026_j64836826300527_1_alg».proof.Proof.Gen.KernelIdeal.Value
import proofs.«173026_j64836826300527_1_alg».proof.Proof.CosineGate
import Idealize.ShloMosaic.Lib.ValueIdx
import Idealize.ShloMosaic.Lib.Pipeline.Value
import Idealize.ShloMosaic.PureOps.Ideal.Laws

noncomputable section

open scoped BigOperators

namespace Cert.CosineGate.Block

open Cert.KernelIdeal Cert.KernelIdeal.Gen
open Idealize.ShloMosaic Idealize.ShloMosaic.ValueIdx Cert.CosineGate

/-! ## The three non-pointwise operations, read at coordinates -/

/-- A lane sum of a block, at row `(p, q)`, is the sum over the lane coordinate. -/
theorem lane_sum (W : FVec Ideal S128x16x512 .f32) (h : S128x16x512.Reduces [2] S128x16)
    (hacc : (0x00000000#32 : BitVec 32) = 0x00000000#32) (p : Fin 128) (q : Fin 16) :
    multiReduction .add [2] S128x16 W 0x00000000#32 h (.inl rfl) hacc (ix2 p q) = ∑ k : Fin 512, W (ix3 p q k) := by
  refine (Ideal.multiReduction_add_single W 0x00000000#32 h (.inl rfl) hacc (ix2 p q)).trans ?_
  exact Finset.sum_congr rfl fun k _ => congrArg W
    (funext fun a => Fin.ext (by match a with | ⟨0, _⟩ => rfl | ⟨1, _⟩ => rfl | ⟨2, _⟩ => rfl))

/-- The reshape of a per-row value to a column, at `(p, q, 0)`, is the value at `(p, q)`. -/
theorem column_of_rows (v : FVec Ideal S128x16 .f32) (h : S128x16.ShapeCasts S128x16x1) (p : Fin 128) (q : Fin 16) :
    shapeCast S128x16x1 v h (ix3 p q (0 : Fin 1)) = v (ix2 p q) :=
  shapeCast_apply v h (ix3 p q (0 : Fin 1)) (ix2 p q)
    (by rw [Shape.rowMajor_val_two, Shape.rowMajor_val_three]; show p.val * 16 + q.val = (p.val * 16 + q.val) * 1 + 0; omega)

/-- The broadcast of a column along the lanes, at `(p, q, k)`, is the column at `(p, q, 0)`. -/
theorem lanes_of_column (d : FVec Ideal S128x16x1 .f32) (h : S128x16x1.Broadcasts S128x16x512)
    (p : Fin 128) (q : Fin 16) (k : Fin 512) :
    broadcastTo S128x16x512 d h (ix3 p q k) = d (ix3 p q (0 : Fin 1)) :=
  broadcastTo_apply d h (ix3 p q k) (ix3 p q (0 : Fin 1)) (fun a => match a with
    | ⟨0, _⟩ => by show p.val = (if (128 : Nat) = 1 then 0 else p.val); rw [if_neg (by decide)]
    | ⟨1, _⟩ => by show q.val = (if (16 : Nat) = 1 then 0 else q.val); rw [if_neg (by decide)]
    | ⟨2, _⟩ => by show 0 = (if (1 : Nat) = 1 then 0 else k.val); rw [if_pos rfl])

/-! ## The stages of the body -/

/-- The column of floored row lengths of a block. -/
theorem floored_column (B : FVec Ideal S128x16x512 .f32) (h : S128x16x512.Reduces [2] S128x16)
    (hacc : (0x00000000#32 : BitVec 32) = 0x00000000#32) (hc : S128x16.ShapeCasts S128x16x1) (p : Fin 128) (q : Fin 16) :
    maximumf (sqrt (shapeCast S128x16x1 (multiReduction .add [2] S128x16 (mulf B B) 0x00000000#32 h (.inl rfl) hacc) hc))
        (broadcast S128x16x1 (Scalar.ofBits (F := Ideal) .f32 0x2B8CBCCC#32)) (ix3 p q (0 : Fin 1))
      = flooredNorm (row B p q) := by
  show max (Ideal.sqrt (shapeCast S128x16x1 (multiReduction .add [2] S128x16 (mulf B B) 0x00000000#32 h (.inl rfl) hacc) hc
      (ix3 p q (0 : Fin 1)))) (Ideal.ofBits .f32 0x2B8CBCCC#32) = _
  rw [column_of_rows, lane_sum]
  rfl

/-- An entry divided by its row's column value. -/
theorem normalised_entry (B : FVec Ideal S128x16x512 .f32) (d : FVec Ideal S128x16x1 .f32)
    (h : S128x16x1.Broadcasts S128x16x512) (p : Fin 128) (q : Fin 16) (k : Fin 512) :
    divf B (broadcastTo S128x16x512 d h) (ix3 p q k) = Ideal.div (B (ix3 p q k)) (d (ix3 p q (0 : Fin 1))) := by
  show Ideal.div (B (ix3 p q k)) (broadcastTo S128x16x512 d h (ix3 p q k)) = _
  rw [lanes_of_column]

/-- The row sums of the products of the two normalised blocks are the cosines of the blocks' rows. -/
theorem cosine_rows (A B : FVec Ideal S128x16x512 .f32) (h₁ h₂ h₃ : S128x16x512.Reduces [2] S128x16)
    (a₁ a₂ a₃ : (0x00000000#32 : BitVec 32) = 0x00000000#32) (c₁ c₂ : S128x16.ShapeCasts S128x16x1)
    (b₁ b₂ : S128x16x1.Broadcasts S128x16x512) (p : Fin 128) (q : Fin 16) :
    multiReduction .add [2] S128x16
        (mulf
          (divf A (broadcastTo S128x16x512 (maximumf (sqrt (shapeCast S128x16x1 (multiReduction .add [2] S128x16 (mulf A A) 0x00000000#32 h₁ (.inl rfl) a₁) c₁))
            (broadcast S128x16x1 (Scalar.ofBits (F := Ideal) .f32 0x2B8CBCCC#32))) b₁))
          (divf B (broadcastTo S128x16x512 (maximumf (sqrt (shapeCast S128x16x1 (multiReduction .add [2] S128x16 (mulf B B) 0x00000000#32 h₂ (.inl rfl) a₂) c₂))
            (broadcast S128x16x1 (Scalar.ofBits (F := Ideal) .f32 0x2B8CBCCC#32))) b₂)))
        0x00000000#32 h₃ (.inl rfl) a₃ (ix2 p q)
      = cosine (row A p q) (row B p q) := by
  rw [lane_sum]
  unfold cosine
  refine Finset.sum_congr rfl fun k _ => ?_
  rw [mulf_apply, normalised_entry, normalised_entry, floored_column, floored_column]
  rfl

/-! ## The block -/

/-- The generated index-by-index form of the body's stored value, at `(p, q, r)`: the second load's entry there
    times the weight of row `(p, q)` of the first load against row `(p, q)` of the second. -/
theorem stored_value (P0 P1 : Vec Ideal S128x16x512 .f32) (p : Fin 128) (q : Fin 16) (r : Fin 512) :
    Cert.KernelIdeal.Value.E2 (F := Ideal) P0 P1 (ix3 p q r) = P0 (ix3 p q r) * weight (row P1 p q) (row P0 p q) := by
  have e0 : Cert.KernelIdeal.Value.ix2_0 (ix3 p q r) = ix3 p q r :=
    funext fun a => Fin.ext (by match a with | ⟨0, _⟩ => rfl | ⟨1, _⟩ => rfl | ⟨2, _⟩ => rfl)
  have e1 : Cert.KernelIdeal.Value.ix2_1 (ix3 p q r) = ix2 p q :=
    funext fun a => Fin.ext (by match a with | ⟨0, _⟩ => rfl | ⟨1, _⟩ => rfl)
  dsimp only [Cert.KernelIdeal.Value.E2]
  rw [e0, e1, cosine_rows]
  rfl

theorem zero_offsets : (![0, 0, 0] : Fin 3 → Nat) = fun _ => 0 := funext fun a => by fin_cases a <;> rfl

/-- WHAT THE BODY LEAVES in the output's staging buffer, from the two input blocks `B0`, `B1`, at a block index `y`:
    `B1 y` times the weight of `y`'s row of `B0` against `y`'s row of `B1`. -/
theorem body_result (B0 B1 : Vec Ideal S128x16x512 .f32) (y : S128x16x512.Idx) :
    out0_2 B0 B1 y = B1 y * weight (row B0 (y 0) (y 1)) (row B1 (y 0) (y 1)) := by
  obtain ⟨p, q, r, rfl⟩ : ∃ (p : Fin 128) (q : Fin 16) (r : Fin 512), y = ix3 p q r := ⟨y 0, y 1, y 2, eq_ix3 y⟩
  unfold out0_2
  rw [Cert.KernelIdeal.Value.canon2_eq]
  simp only [View.ld_unit_zero (S := S128x16x512) zero_offsets]
  exact stored_value B1 B0 p q r

end Cert.CosineGate.Block

end
-- ==== Proof.GateArray.lean ====
/-
  From blocks to the array: after the kernel's run its result array is the gated array of the arguments.

  The grid has 32 points.  At point `t` each of the three windows sits at block `(t, 0, 0)` of its array:
  rows `128·t … 128·t + 127` of the leading axis, everything of the other two.  So entry `(j₀, j₁, j₂)` of a
  block is entry `(128·t + j₀, j₁, j₂)` of the array, a row of a block is the row of the array at the same
  place, and what point `t` writes back — the gated block of the two input blocks — is block `t` of the gated
  array of the two argument arrays.  The 32 output blocks cover the array (row `i₀` of the leading axis lies in
  block `i₀ / 128`), hence the array ends holding the gated array everywhere.
-/
import proofs.«173026_j64836826300527_1_alg».proof.Proof.Gen.KernelIdeal.Value
import proofs.«173026_j64836826300527_1_alg».proof.Proof.GateBlock
import proofs.«173026_j64836826300527_1_alg».proof.Proof.CosineGate
import Idealize.ShloMosaic.Lib.ValueIdx
import Idealize.ShloMosaic.Lib.Pipeline.Value

noncomputable section

namespace Cert.CosineGate.Array

open Cert.KernelIdeal Cert.KernelIdeal.Gen Idealize.ShloMosaic Idealize.ShloMosaic.TcCoe Idealize.SL.Sem
open Idealize.ShloMosaic.Pipeline (Dat)
open Idealize.ShloMosaic.ValueIdx Cert.CosineGate

variable (m : (ℓ : Loc nD τ sig) → Buf (Elt Ideal) ℓ) (ρ : Dev nD → PrngReg)

/-! ## Where the blocks sit -/

/-- The printed index maps, decided over the 32 grid points: the two input windows move with the output window
    along the leading axis, every window stays at block 0 of the other two axes, and the output's leading block
    index is at most 31. -/
theorem block_positions : ∀ t : Fin cfg0.N,
    win0_0.index t (0 : Fin 3) = win0_2.index t (0 : Fin 3)
    ∧ win0_1.index t (0 : Fin 3) = win0_2.index t (0 : Fin 3)
    ∧ win0_0.index t (1 : Fin 3) = 0 ∧ win0_0.index t (2 : Fin 3) = 0
    ∧ win0_1.index t (1 : Fin 3) = 0 ∧ win0_1.index t (2 : Fin 3) = 0
    ∧ win0_2.index t (1 : Fin 3) = 0 ∧ win0_2.index t (2 : Fin 3) = 0
    ∧ win0_2.index t (0 : Fin 3) ≤ 31 :=
  (by decide +kernel : ∀ t : Fin grid0.N, _)

/-- Every leading block index below 32 is some point's. -/
theorem block_onto : ∀ (b : Fin 32), ∃ t : Fin cfg0.N, win0_2.index t = ![b.val, 0, 0] :=
  (by decide +kernel : ∀ (b : Fin 32), ∃ t : Fin grid0.N, win0_2.index t = ![b.val, 0, 0])

/-! ## What a point writes back -/

/-- WHAT POINT `t` WRITES BACK is block `t` of the gated array of the argument arrays as the region finds them. -/
theorem flushed_eq (c : Dev nD) (t : Fin cfg0.N) :
    (dats m 0 c).flushed 2 t
      = ((cfg0.win 2).blk t).view.read (Elt Ideal) (gated (V m c main_arg0) (V m c main_arg1)) := by
  rw [Cert.KernelIdeal.Value.flushed2]
  obtain ⟨e0, e1, z01, z02, z11, z12, z21, z22, hle⟩ := block_positions t
  funext j
  show out0_2 (iblk m c 0 t) (iblk m c 1 t) j
    = gated (V m c main_arg0) (V m c main_arg1) (((cfg0.win 2).blk t).view.emb j)
  refine (Block.body_result (iblk m c 0 t) (iblk m c 1 t) j).trans ?_
  have hj0 : (j 0).val < 128 := (j 0).isLt
  have hj1 : (j 1).val < 16 := (j 1).isLt
  have hj2 : (j 2).val < 512 := (j 2).isLt
  -- the array coordinates of the block's entry `j`
  obtain ⟨a0, ha0⟩ : ∃ a0 : Fin 4096, a0.val = win0_2.index t (0 : Fin 3) * 128 + (j 0).val := ⟨⟨_, by omega⟩, rfl⟩
  obtain ⟨a1, ha1⟩ : ∃ a1 : Fin 16, a1.val = (j 1).val := ⟨⟨_, hj1⟩, rfl⟩
  obtain ⟨a2, ha2⟩ : ∃ a2 : Fin 512, a2.val = (j 2).val := ⟨⟨_, hj2⟩, rfl⟩
  have hemb : ((cfg0.win 2).blk t).view.emb j = ix3 a0 a1 a2 := by
    funext a; apply Fin.ext
    match a with
    | ⟨0, _⟩ => show win0_2.index t (0 : Fin 3) * 128 + 1 * (j 0).val = a0.val; omega
    | ⟨1, _⟩ => show win0_2.index t (1 : Fin 3) * 16 + 1 * (j 1).val = a1.val; omega
    | ⟨2, _⟩ => show win0_2.index t (2 : Fin 3) * 512 + 1 * (j 2).val = a2.val; omega
  rw [hemb, gated_ix3]
  -- the entry of the second input block
  have hentry : iblk m c 1 t j = V m c main_arg1 (ix3 a0 a1 a2) := by
    show V m c main_arg1 (((cfg0.win 1).blk t).view.emb j) = V m c main_arg1 (ix3 a0 a1 a2)
    refine congrArg (V m c main_arg1) ?_
    funext a; apply Fin.ext
    match a with
    | ⟨0, _⟩ => show win0_1.index t (0 : Fin 3) * 128 + 1 * (j 0).val = a0.val; omega
    | ⟨1, _⟩ => show win0_1.index t (1 : Fin 3) * 16 + 1 * (j 1).val = a1.val; omega
    | ⟨2, _⟩ => show win0_1.index t (2 : Fin 3) * 512 + 1 * (j 2).val = a2.val; omega
  -- the rows of the two input blocks are the rows of the arrays
  have hrow0 : row (iblk m c 0 t) (j 0) (j 1) = row (V m c main_arg0) a0 a1 := by
    funext k
    show V m c main_arg0 (((cfg0.win 0).blk t).view.emb (ix3 (j 0) (j 1) k)) = V m c main_arg0 (ix3 a0 a1 k)
    refine congrArg (V m c main_arg0) ?_
    funext a; apply Fin.ext
    match a with
    | ⟨0, _⟩ => show win0_0.index t (0 : Fin 3) * 128 + 1 * (j 0).val = a0.val; omega
    | ⟨1, _⟩ => show win0_0.index t (1 : Fin 3) * 16 + 1 * (j 1).val = a1.val; omega
    | ⟨2, _⟩ => show win0_0.index t (2 : Fin 3) * 512 + 1 * k.val = k.val; omega
  have hrow1 : row (iblk m c 1 t) (j 0) (j 1) = row (V m c main_arg1) a0 a1 := by
    funext k
    show V m c main_arg1 (((cfg0.win 1).blk t).view.emb (ix3 (j 0) (j 1) k)) = V m c main_arg1 (ix3 a0 a1 k)
    refine congrArg (V m c main_arg1) ?_
    funext a; apply Fin.ext
    match a with
    | ⟨0, _⟩ => show win0_1.index t (0 : Fin 3) * 128 + 1 * (j 0).val = a0.val; omega
    | ⟨1, _⟩ => show win0_1.index t (1 : Fin 3) * 16 + 1 * (j 1).val = a1.val; omega
    | ⟨2, _⟩ => show win0_1.index t (2 : Fin 3) * 512 + 1 * k.val = k.val; omega
  rw [hentry, hrow0, hrow1]

/-! ## The cover -/

/-- An index of the array is in point `t`'s output block iff each coordinate is in the block's range on its axis. -/
theorem mem_block (t : Fin cfg0.N) (i : S4096x16x512.Idx) :
    i ∈ ((cfg0.win 2).blk t).view.set ↔ ∀ a : Fin 3, win0_2.index t a * S128x16x512.size a ≤ (i a).val
      ∧ (i a).val < win0_2.index t a * S128x16x512.size a + S128x16x512.size a := by
  show i ∈ ((View.whole main_v0).slice (win0_2.rect t)).set ↔ _
  rw [View.set_slice_whole, Rect.mem_set_unit]
  exact Iff.rfl

/-- Every index of the array is in some point's output block: leading coordinate `i₀` lies in block `i₀ / 128`. -/
theorem covered (i : S4096x16x512.Idx) :
    ∃ t : Fin cfg0.N, (cfg0.win 2).flush t = true ∧ i ∈ ((cfg0.win 2).blk t).view.set := by
  have hi0 : (i 0).val < 4096 := (i 0).isLt
  have hi1 : (i 1).val < 16 := (i 1).isLt
  have hi2 : (i 2).val < 512 := (i 2).isLt
  obtain ⟨t, ht⟩ := block_onto ⟨(i 0).val / 128, by omega⟩
  have q0 : win0_2.index t (0 : Fin 3) = (i 0).val / 128 := congrFun ht 0
  have q1 : win0_2.index t (1 : Fin 3) = 0 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 128 ≤ (i 0).val ∧ (i 0).val < win0_2.index t (0 : Fin 3) * 128 + 128; omega
  | ⟨1, _⟩ => show win0_2.index t (1 : Fin 3) * 16 ≤ (i 1).val ∧ (i 1).val < win0_2.index t (1 : Fin 3) * 16 + 16; omega
  | ⟨2, _⟩ => show win0_2.index t (2 : Fin 3) * 512 ≤ (i 2).val ∧ (i 2).val < win0_2.index t (2 : Fin 3) * 512 + 512; omega

/-! ## The array after the run -/

/-- THE RESULT ARRAY after the run is the gated array of the two argument arrays. -/
theorem final (c : Dev nD) :
    (dats m 0 c).arrAt 2 cfg0.N
      = gated (m ((c : Thread nD τ).loc main_arg0)) (m ((c : Thread nD τ).loc main_arg1)) :=
  (dats m 0 c).arrAt_eq_of_cover 2 (gated (V m c main_arg0) (V m c main_arg1)) (fun t _ => flushed_eq m c t) covered

/-- The kernel's run: every weakly fair execution terminates with the result array at the gated array of the
    arguments, the arguments unchanged. -/
theorem run : θ_run defs (onTc (τ := τ) (main (F := Ideal))) ⟨m, fun _ => 0, ρ⟩ fun r => ∀ c : Dev nD,
      r.2.mem ((c : Thread nD τ).loc main_v0)
        = gated (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.CosineGate.Array

end
-- ==== Proof.lean ====
/-
  A cosine-similarity gate: a tiled kernel against its whole-array reference, equal on the extended reals.

  Both programs take two arrays `x`, `y` of shape [4096, 16, 512] and return `y` with every row of 512 lanes
  scaled by `1 − σ(cos)`, where `cos` is the cosine of that row of `x` and the same row of `y` — each row divided
  by its Euclidean length, the length never taken below ε ≈ 1e-12 — and σ is the logistic function
  (Proof/CosineGate.lean states this function once).

  The kernel walks the leading axis in 32 blocks of 128; each block's rows are whole, so a row's sums never leave
  its block, and the body's stored value is the gated block of its two input blocks (Proof/GateBlock.lean); the
  blocks tile the array, so the result array is the gated array (Proof/GateArray.lean).  The reference computes the
  same stages on whole arrays, with the logistic function spelt out as `1 / (1 + e^(−t))` (Proof/GateReference.lean).
  At the ideal instance a quotient, a square root, a maximum and the logistic function are one function whether
  the kernel or the host applies them, a lane sum is the plain sum on either side, and both programs carry the
  same words for ε and for one; no law of arithmetic beyond that is needed, so the inputs' finiteness is not used.

  The three frames are the generated ones (the reference's is its generated run with the result dropped), and
  the kernel's idealization rewrote nothing, so there is nothing to preserve.
-/
import proofs.«173026_j64836826300527_1_alg».proof.Defs
import proofs.«173026_j64836826300527_1_alg».proof.Proof.Gen.Kernel
import proofs.«173026_j64836826300527_1_alg».proof.Proof.Gen.Kernel.Frame
import proofs.«173026_j64836826300527_1_alg».proof.Proof.Gen.KernelIdeal
import proofs.«173026_j64836826300527_1_alg».proof.Proof.Gen.KernelIdeal.Frame
import proofs.«173026_j64836826300527_1_alg».proof.Proof.Gen.KernelIdeal.Value
import proofs.«173026_j64836826300527_1_alg».proof.Proof.Gen.ReferenceIdeal
import proofs.«173026_j64836826300527_1_alg».proof.Proof.Gen.ReferenceIdeal.Run
import proofs.«173026_j64836826300527_1_alg».proof.Proof.Gen.ReferenceIdeal.Read
import proofs.«173026_j64836826300527_1_alg».proof.Proof.Gen.Pre_finite_inputs
import proofs.«173026_j64836826300527_1_alg».proof.Proof.CosineGate
import proofs.«173026_j64836826300527_1_alg».proof.Proof.GateReference
import proofs.«173026_j64836826300527_1_alg».proof.Proof.GateArray

noncomputable section

namespace Cert.Proof

open Idealize.ShloMosaic Idealize.ShloMosaic.TcCoe Idealize.SL.Sem

/-- The word-level kernel terminates, faults nowhere and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the two arguments, the kernel's result array and the reference's are both the
    gated array of those arguments. -/
theorem algebraic : Cert.algebraic_KernelIdeal_ReferenceIdeal := by
  intro m ρ m' ρ' _ hagree
  refine ⟨_, Cert.CosineGate.Array.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v28_eq _ _).trans (Cert.CosineGate.Reference.result_eq _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
